-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S65536x256 : Shape := ⟨2, ![65536, 256]⟩
abbrev S1x1x1 : Shape := ⟨3, ![1, 1, 1]⟩
abbrev S4096x256 : Shape := ⟨2, ![4096, 256]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S1x1x1, .f32⟩
  | .hbm, ⟨3, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S1x1_S1x1x1 : S1x1.ShapeCasts S1x1x1
  slices_S4096x1_o4095_0_S1x1 : S4096x1.Slices ![4095, 0] S1x1
  shapeCasts_S1x1x1_S_ : S1x1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S1x1x1.size a
  hwx0_2 : ∀ i : grid0.Coords, EltTy.bits .f32 = 32 ∨ (Rect.block (s := S1x1x1) S1x1x1.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x256 : Shape := ⟨2, ![65536, 256]⟩
abbrev S_ : Shape := ⟨0, ![]⟩
abbrev S65536 : Shape := ⟨1, ![65536]⟩
abbrev S1 : Shape := ⟨1, ![1]⟩

abbrev nBuf : Space → Nat
  | .hbm => 19
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S_, .f32⟩
  | .hbm, ⟨6, _⟩ => ⟨S65536, .f32⟩
  | .hbm, ⟨7, _⟩ => ⟨S_, .i32⟩
  | .hbm, ⟨8, _⟩ => ⟨S1, .i32⟩
  | .hbm, ⟨9, _⟩ => ⟨S_, .f32⟩
  | .hbm, ⟨10, _⟩ => ⟨S65536, .f32⟩
  | .hbm, ⟨11, _⟩ => ⟨S_, .f32⟩
  | .hbm, ⟨12, _⟩ => ⟨S65536, .f32⟩
  | .hbm, ⟨13, _⟩ => ⟨S65536, .f32⟩
  | .hbm, ⟨14, _⟩ => ⟨S65536, .f32⟩
  | .hbm, ⟨15, _⟩ => ⟨S65536, .f32⟩
  | .hbm, ⟨16, _⟩ => ⟨S65536, .f32⟩
  | .hbm, ⟨17, _⟩ => ⟨S_, .f32⟩
  | .hbm, ⟨18, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S_S65536 : S_.BroadcastsInDim S65536 (![] : Fin 0 → Fin S65536.rank)
  bcast_S_S1 : S_.BroadcastsInDim S1 (![] : Fin 0 → Fin S1.rank)
  reducesTo_S65536_S_d0 : S65536.ReducesTo [0] S_
  scatter_S65536_S1_S__n_0_0_0_wf : ScatterDims.WF S65536 S1 S_ [] [0] [0] 0

variable [Facts₀]

def scatter_S65536_S1_S__n_0_0_0 : ScatterDims S65536 S1 S_ where
  updateWindowDims := []
  insertedWindowDims := [0]
  scatterDimsToOperandDims := [0]
  indexVectorDim := 0
  wf := scatter_S65536_S1_S__n_0_0_0_wf

class Facts : Prop extends Facts₀ where

variable [Facts]
-- ==== Proof.KernelPieces.lean ====
/-
  What the kernel body leaves in the one-element output block, case by case, for any float instance.

  The body computes from the two input blocks x0, x1 (4096 rows each) the block's partial total, and adds it to
  what the output block holds.  At the first grid point it first stores a zero and reads it back, so the block
  ends at  partial(x0, x1) added to zero;  at an inner point it ends at  partial added to what the block held;
  at the last point it then adds, in a second store, the product of the block's last row once more.  Each store
  covers the whole block, so what the block holds afterwards is the last store's value, and a load that follows
  a store reads that store's value.
-/
import proofs.«114644_g86526411145838_feedfinal_116_6_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- An inner point: the block that held xo ends at the third payload of the input blocks and xo, the running
    total plus this block's partial total. -/
theorem out_B (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1x1 .f32) (h3 : a3.IsWhole)
    (hc0 : ¬cond0_0 i) (hc1 : ¬cond0_1 i) (x0 x1 : Vec F S4096x256 .f32) (xo : Vec F S1x1x1 .f32) :
    out0_B_2 c i a1 h1 a2 h2 a3 h3 hc0 hc1 x0 x1 xo = k0_pay3 x0 x1 xo := by
  unfold out0_B_2
  rw [View.read_writes_eq_canon _ _ _ (cover0_B_2 c i a1 h1 a2 h2 a3 h3 hc0 hc1 x0 x1 xo)]
  unfold kernelRun0_B
  dsimp only
  rw [View.canon_unit_zero hz3]
  simp only [View.readAt_eq_ld, h1.read_unread, h2.read_unread, h3.read_unread, View.ld_unit_zero (S := S4096x256) hz2,
    View.ld_unit_zero (S := S1x1x1) hz3]

/-- The first point: the zero block is stored and read back, so the block ends at the partial total added to
    zero. -/
theorem out_A (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1x1 .f32) (h3 : a3.IsWhole)
    (hc0 : cond0_0 i) (hc1 : ¬cond0_1 i) (x0 x1 : Vec F S4096x256 .f32) :
    out0_A_2 c i a1 h1 a2 h2 a3 h3 hc0 hc1 x0 x1 = k0_pay3 x0 x1 (k0_pay2 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1x1) hz3, View.readCov_unit_zero (S := S1x1x1) _ hz3]
  simp only [View.readAt_eq_ld, h1.read_unread, h2.read_unread, View.ld_unit_zero (S := S4096x256) hz2]

/-- The last point: after the running total has taken up the block's partial total, a second store adds the
    product of the block's last row. -/
theorem out_C (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1x1 .f32) (h3 : a3.IsWhole)
    (hc0 : ¬cond0_0 i) (hc1 : cond0_1 i) (x0 x1 : Vec F S4096x256 .f32) (xo : Vec F S1x1x1 .f32) :
    out0_C_2 c i a1 h1 a2 h2 a3 h3 hc0 hc1 x0 x1 xo = k0_pay4 x0 x1 (k0_pay3 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1x1) hz3, View.readCov_unit_zero (S := S1x1x1) _ hz3]
  simp only [View.readAt_eq_ld, h1.read_unread, h2.read_unread, h3.read_unread, View.ld_unit_zero (S := S4096x256) hz2,
    View.ld_unit_zero (S := S1x1x1) hz3]

end Cert.KernelIdeal.Pieces

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibSublaneSum.lean ====
/-
  The sum of an [a, b] array along its rows (axis 0), read at an index: on the extended reals the reduction
  to [b], at q, is the sum over k of the entries (k, q).  Stated for any extents a and b.
-/
import Idealize.ShloMosaic.Lib.Pipeline.Value
import Idealize.ShloMosaic.Lib.ValueIdx
import Idealize.ShloMosaic.PureOps.Ideal.Laws

namespace SublaneSum

open Idealize.ShloMosaic Idealize.ShloMosaic.ValueIdx

/-- The index of an [a, b] array that lies over q of the reduced [b] with row k put back is (k, q). -/
theorem lift_row {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- On the extended reals the sum of an [a, b] array along its rows is, at q, the sum over k of the entries
    (k, q): the reduction starts from the zero word, the neutral element of the sum. -/
theorem rowSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_row h q k)

end SublaneSum
-- ==== Proof.KernelPayload.lean ====
/-
  The kernel body's arithmetic on the extended reals, read at an index.

  For two input blocks x0, x1 of 4096 rows and 256 lanes write  d r = Σ_k x0(r,k) · x1(r,k)  for the product of
  row r, and  T = Σ_r (65533 · d r + exp (d r))  for the block's partial total.  Then
    • the keepdims column of row products holds d r at (r, 0);
    • the zero block holds 0;
    • the accumulating store's value is  acc + T  (acc what the one-element output block held);
    • the last point's extra store's value is  acc + d 4095.
  The lane sum, the sum down the column and the shape casts between one-element shapes are read at their
  indices; nothing about the values is used.
-/
import proofs.«114644_g86526411145838_feedfinal_116_6_alg».proof.Proof.Gen.KernelIdeal.Skeleton
import proofs.«114644_g86526411145838_feedfinal_116_6_alg».proof.Proof.LibKeepdims
import proofs.«114644_g86526411145838_feedfinal_116_6_alg».proof.Proof.LibSublaneSum
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- The product of row r of two blocks. -/
def rowDot (x0 x1 : FVec Ideal S4096x256 .f32) (r : Fin 4096) : EReal :=
  ∑ k : Fin 256, x0 (ix2 r k) * x1 (ix2 r k)

/-- A block's partial total: every row's 65533 · d + exp d. -/
def blockTotal (x0 x1 : FVec Ideal S4096x256 .f32) : EReal :=
  ∑ r : Fin 4096, (Ideal.ofBits .f32 0x477FFD00#32 * rowDot x0 x1 r + Ideal.exp (rowDot x0 x1 r))

/-- The last row of a block. -/
abbrev lastRow : Fin 4096 := ⟨4095, by decide⟩

/-- A vector of extent 1 has one index, -/
theorem unique1 (k k' : S1.Idx) : k = k' := by
  rw [eq_ix1 k, eq_ix1 k']
  exact congrArg ix1 (Subsingleton.elim (α := Fin 1) _ _)

/-- and so has a [1, 1] array. -/
theorem unique2 (k k' : S1x1.Idx) : k = k' := by
  rw [eq_ix2 k, eq_ix2 k']
  exact congrArg₂ ix2 (Subsingleton.elim (α := Fin 1) _ _) (Subsingleton.elim (α := Fin 1) _ _)

/-- A shape cast out of a shape with one index reads that index's element everywhere. -/
theorem shapeCast_of_unique {s t : Shape} {α : Type} (x : s.Idx → α) (h : s.ShapeCasts t)
    (hu : ∀ k k' : s.Idx, k = k') (j : t.Idx) (k : s.Idx) : shapeCast t x h j = x k := by
  unfold shapeCast
  exact congrArg x (hu _ _)

/-- The one-element slice at (4095, 0) of a [4096, 1] column reads the column's last element. -/
theorem slice_last_apply (v : FVec Ideal S4096x1 .f32) :
    extractStridedSlice S1x1 ![4095, 0] v slices_S4096x1_o4095_0_S1x1 (ix2 (0 : Fin 1) (0 : Fin 1))
      = v (ix2 lastRow (0 : Fin 1)) := by
  unfold extractStridedSlice
  refine congrArg v (funext fun a => Fin.ext ?_)
  match a with
  | ⟨0, _⟩ => rfl
  | ⟨1, _⟩ => rfl

/-- The column of row products holds d r at (r, 0). -/
theorem pay1_apply (x0 x1 : FVec Ideal S4096x256 .f32) (r : Fin 4096) (z : Fin 1) :
    k0_pay1 (F := Ideal) x0 x1 (ix2 r z) = rowDot x0 x1 r := by
  unfold k0_pay1
  refine (Keepdims.shapeCast_a_a1_apply _ shapeCasts_S4096_S4096x1 r z).trans ?_
  exact Keepdims.laneSum_apply (mulf x0 x1) reduces_S4096x256_S4096 (.inl rfl) rfl r

/-- The zero block holds 0. -/
theorem pay2_apply (j : S1x1x1.Idx) : k0_pay2 (F := Ideal) j = 0 :=
  Ideal.ofBits_zero_f32

/-- The accumulating store writes what the block held plus the block's partial total. -/
theorem pay3_apply (x0 x1 : FVec Ideal S4096x256 .f32) (acc : FVec Ideal S1x1x1 .f32) (j : S1x1x1.Idx) :
    k0_pay3 (F := Ideal) x0 x1 acc j = acc j + blockTotal x0 x1 := by
  unfold k0_pay3
  refine congrArg₂ (· + ·) (congrFun (shapeCast_self acc shapeCasts_S1x1x1_S1x1x1) j) ?_
  refine (shapeCast_of_unique _ shapeCasts_S1x1_S1x1x1 unique2 j (ix2 (0 : Fin 1) (0 : Fin 1))).trans ?_
  refine (shapeCast_of_unique _ shapeCasts_S1_S1x1 unique1 (ix2 (0 : Fin 1) (0 : Fin 1)) (ix1 (0 : Fin 1))).trans ?_
  refine (SublaneSum.rowSum_apply _ reduces_S4096x1_S1 (.inl rfl) rfl (0 : Fin 1)).trans ?_
  refine Finset.sum_congr rfl fun r _ => ?_
  have e := pay1_apply x0 x1 r 0
  show Ideal.ofBits .f32 0x477FFD00#32 * k0_pay1 (F := Ideal) x0 x1 (ix2 r (0 : Fin 1))
      + Ideal.exp (k0_pay1 (F := Ideal) x0 x1 (ix2 r (0 : Fin 1))) = _
  rw [e]

/-- The last point's second store writes what the block held plus the product of the block's last row. -/
theorem pay4_apply (x0 x1 : FVec Ideal S4096x256 .f32) (acc : FVec Ideal S1x1x1 .f32) (j : S1x1x1.Idx) :
    k0_pay4 (F := Ideal) x0 x1 acc j = acc j + rowDot x0 x1 lastRow := by
  unfold k0_pay4
  refine congrArg₂ (· + ·) (congrFun (shapeCast_self acc shapeCasts_S1x1x1_S1x1x1) j) ?_
  refine (shapeCast_of_unique _ shapeCasts_S1x1_S1x1x1 unique2 j (ix2 (0 : Fin 1) (0 : Fin 1))).trans ?_
  refine (slice_last_apply _).trans ?_
  exact pay1_apply x0 x1 lastRow 0

end Cert.KernelIdeal.Payload

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«114644_g86526411145838_feedfinal_116_6_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.LossLaw.lean ====
/-
  The arithmetic that joins the two arrangements of the loss.

  Both programs compute, from the row products d i (i < N), the total of  w i · d i + e i  (e i stands for
  exp (d i); nothing about it is used), where the weight is a constant c on every row but the last one L, whose
  weight is c + 1.  One arrangement adds the rows up with their weights in one sweep.  The other uses the weight
  c on every row, adds the rows block by block into a running total that starts from zero, and at the end adds
  d L once more.  They agree on the extended reals: a sum may be regrouped and reordered freely there, and
  (c + 1) · d = c · d + d holds for a nonnegative real c whatever d is (also at the infinities).
-/
import Mathlib.Data.EReal.Operations
import Mathlib.Algebra.BigOperators.Fin
import proofs.«114644_g86526411145838_feedfinal_116_6_alg».proof.Proof.LibBlockSum

namespace Cert.LossLaw

open Finset

/-- One more copy of d: (a + 1) · d = a · d + d for a real a ≥ 0 and any extended real d. -/
theorem weight_succ (a : ℝ) (ha : 0 ≤ a) (d : EReal) :
    ((a + 1 : ℝ) : EReal) * d = (a : EReal) * d + d := by
  rw [EReal.coe_add, EReal.right_distrib_of_nonneg (EReal.coe_nonneg.mpr ha) (by norm_num), EReal.coe_one, one_mul]

/-- The weighted total with the heavier last row is the evenly weighted total plus d L. -/
theorem total_with_last {N : ℕ} (L : Fin N) (c c' : EReal) (d e : Fin N → EReal)
    (hL : c' * d L = c * d L + d L) :
    ∑ i, ((if i = L then c' else c) * d i + e i) = (∑ i, (c * d i + e i)) + d L := by
  have h : ∀ i, (if i = L then c' else c) * d i + e i = (c * d i + e i) + (if i = L then d L else 0) := by
    intro i
    by_cases hi : i = L
    · subst hi
      rw [if_pos rfl, if_pos rfl, hL, add_right_comm]
    · rw [if_neg hi, if_neg hi, add_zero]
  rw [Finset.sum_congr rfl (fun i _ => h i), Finset.sum_add_distrib, Finset.sum_ite_eq' Finset.univ L (fun _ => d L),
    if_pos (Finset.mem_univ L)]

/-- A running total: it starts at z + B 0 and takes up B (n + 1) at step n + 1. -/
def running {M : Type*} [AddCommMonoid M] (z : M) (B : ℕ → M) : ℕ → M
  | 0 => z + B 0
  | n + 1 => running z B n + B (n + 1)

theorem running_zero {M : Type*} [AddCommMonoid M] (z : M) (B : ℕ → M) : running z B 0 = z + B 0 := rfl

theorem running_succ {M : Type*} [AddCommMonoid M] (z : M) (B : ℕ → M) (n : ℕ) :
    running z B (n + 1) = running z B n + B (n + 1) := rfl

/-- After step n the running total is z plus the first n + 1 terms. -/
theorem running_eq {M : Type*} [AddCommMonoid M] (z : M) (B : ℕ → M) (n : ℕ) :
    running z B n = z + ∑ j ∈ range (n + 1), B j := by
  induction n with
  | zero => simp [running]
  | succ n ih => rw [running, ih, Finset.sum_range_succ _ (n + 1), add_assoc]

/-- A running total from zero over n blocks of b rows each, then the last row once more, is the total with the
    heavier last row: the statement that joins the two programs.  Here w is the evenly weighted row term
    c · d i + e i read at position b · s + r of block s, and B packs a block's sum as a function of the step. -/
theorem blocks_then_last {n b N : ℕ} (hN : n * b = N) (hn : 0 < n) (L : Fin N) (c c' : EReal) (d e : Fin N → EReal)
    (hL : c' * d L = c * d L + d L) (B : ℕ → EReal)
    (hB : ∀ s : Fin n, B s.val = ∑ r : Fin b, (c * d ⟨b * s.val + r.val, hN ▸ BlockSum.pos_lt s r⟩
      + e ⟨b * s.val + r.val, hN ▸ BlockSum.pos_lt s r⟩)) :
    running 0 B (n - 1) + d L = ∑ i, ((if i = L then c' else c) * d i + e i) := by
  rw [total_with_last L c c' d e hL, running_eq, zero_add, Nat.sub_add_cancel hn,
    BlockSum.sum_eq_sum_blocks n b N hN (fun i => c * d i + e i), ← Fin.sum_univ_eq_sum_range]
  exact congrArg (· + d L) (Finset.sum_congr rfl fun s _ => hB s)

end Cert.LossLaw
-- ==== Proof.KernelChain.lean ====
/-
  What the one-element output block holds after every grid point, on the extended reals.

  The grid has 16 points; point t reads rows 4096·t … 4096·t + 4095 of the two arrays.  Writing T t for the
  partial total of point t's blocks, the block holds after point n
      ((0 + T 0) + T 1) + … + T n,
  a running total from zero, and after the last point (n = 15) that plus the product of the last row of the
  last blocks.  By induction on the point: the first point stores the partial total added to a stored zero, an
  inner point adds its partial total to what the block held, the last point then adds the last row's product.
-/
import proofs.«114644_g86526411145838_feedfinal_116_6_alg».proof.Proof.Gen.KernelIdeal.Frame
import proofs.«114644_g86526411145838_feedfinal_116_6_alg».proof.Proof.KernelPieces
import proofs.«114644_g86526411145838_feedfinal_116_6_alg».proof.Proof.KernelPayload
import proofs.«114644_g86526411145838_feedfinal_116_6_alg».proof.Proof.LossLaw

noncomputable section

open Idealize.ShloMosaic Idealize.ShloMosaic.TcCoe Idealize.SL.Sem

namespace Cert.KernelIdeal.Chain

open Cert.KernelIdeal Cert.KernelIdeal.Gen Idealize.ShloMosaic.ValueIdx Cert.KernelIdeal.Payload Cert.LossLaw

variable (m : (ℓ : Loc nD τ sig) → Buf (Elt Ideal) ℓ)

/-- Point t's block of the first array, -/
def blk0 (c : Dev nD) (t : Fin cfg0.N) : FVec Ideal S4096x256 .f32 := iblk m c 0 t
/-- and of the second. -/
def blk1 (c : Dev nD) (t : Fin cfg0.N) : FVec Ideal S4096x256 .f32 := iblk m c 1 t

/-- The partial total of step j's blocks (0 past the grid). -/
def partialAt (c : Dev nD) (j : ℕ) : EReal :=
  if h : j < cfg0.N then blockTotal (blk0 m c ⟨j, h⟩) (blk1 m c ⟨j, h⟩) else 0

/-- The product of the last row of the last point's blocks. -/
def lastDot (c : Dev nD) : EReal :=
  if h : 15 < cfg0.N then rowDot (blk0 m c ⟨15, h⟩) (blk1 m c ⟨15, h⟩) lastRow else 0

/-- The first point leaves the partial total added to zero. -/
theorem step_A (c : Dev nD) (t : Fin cfg0.N) (h0 : t.val % 16 = 0) (h1 : ¬t.val % 16 = 15) (j : S1x1x1.Idx) :
    outsAt0 m c t.val t.isLt j = 0 + blockTotal (blk0 m c t) (blk1 m c t) := by
  rw [outsAt0_A m c t h0 h1]
  refine (congrFun (Pieces.out_A (F := Ideal) c (grid0.coords t) (ms0_0 t) (hs0_0 t) (ms0_1 t) (hs0_1 t) (ms0_2 t) (hs0_2 t)
    ((hcond0_0 t).mpr h0) (fun h => h1 ((hcond0_1 t).mp h)) (iblk m c 0 t) (iblk m c 1 t)) j).trans ?_
  refine (pay3_apply (blk0 m c t) (blk1 m c t) (k0_pay2 (F := Ideal)) j).trans ?_
  rw [pay2_apply]

/-- An inner point adds its partial total to what the point before left. -/
theorem step_B (c : Dev nD) (t : Fin cfg0.N) (h0 : ¬t.val % 16 = 0) (h1 : ¬t.val % 16 = 15) (j : S1x1x1.Idx) :
    outsAt0 m c t.val t.isLt j
      = outsAt0 m c (t.val - 1) (Nat.lt_of_le_of_lt (Nat.sub_le _ _) t.isLt) j + blockTotal (blk0 m c t) (blk1 m c t) := by
  rw [outsAt0_B m c t h0 h1]
  refine (congrFun (Pieces.out_B (F := Ideal) c (grid0.coords t) (ms0_0 t) (hs0_0 t) (ms0_1 t) (hs0_1 t) (ms0_2 t) (hs0_2 t)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt))) j).trans ?_
  exact pay3_apply (blk0 m c t) (blk1 m c t) (outsAt0 m c (t.val - 1) (Nat.lt_of_le_of_lt (Nat.sub_le _ _) t.isLt)) j

/-- The last point adds its partial total and then the product of its blocks' last row. -/
theorem step_C (c : Dev nD) (t : Fin cfg0.N) (h0 : ¬t.val % 16 = 0) (h1 : t.val % 16 = 15) (j : S1x1x1.Idx) :
    outsAt0 m c t.val t.isLt j
      = (outsAt0 m c (t.val - 1) (Nat.lt_of_le_of_lt (Nat.sub_le _ _) t.isLt) j + blockTotal (blk0 m c t) (blk1 m c t))
        + rowDot (blk0 m c t) (blk1 m c t) lastRow := by
  rw [outsAt0_C m c t h0 h1]
  refine (congrFun (Pieces.out_C (F := Ideal) c (grid0.coords t) (ms0_0 t) (hs0_0 t) (ms0_1 t) (hs0_1 t) (ms0_2 t) (hs0_2 t)
    (fun h => h0 ((hcond0_0 t).mp h)) ((hcond0_1 t).mpr h1) (iblk m c 0 t) (iblk m c 1 t)
    (outsAt0 m c (t.val - 1) (Nat.lt_of_le_of_lt (Nat.sub_le _ _) t.isLt))) j).trans ?_
  refine (pay4_apply (blk0 m c t) (blk1 m c t) _ j).trans ?_
  exact congrArg (· + rowDot (blk0 m c t) (blk1 m c t) lastRow)
    (pay3_apply (blk0 m c t) (blk1 m c t) (outsAt0 m c (t.val - 1) (Nat.lt_of_le_of_lt (Nat.sub_le _ _) t.isLt)) j)

/-- After point n the block holds the running total of the partial totals from zero, and after the last point
    also the last row's product. -/
theorem outsAt_val (c : Dev nD) : ∀ (n : ℕ) (h : n < cfg0.N) (j : S1x1x1.Idx),
    outsAt0 m c n h j = running 0 (partialAt m c) n + (if n = 15 then lastDot m c else 0)
  | 0, h, j => by
    rw [step_A m c ⟨0, h⟩ rfl (by dsimp only; omega) j, if_neg (by decide), add_zero, running_zero, partialAt, dif_pos h]
  | n + 1, h, j => by
    have hN : cfg0.N = 16 := N_0
    have hn : n + 1 < 16 := hN ▸ h
    have h0 : ¬(⟨n + 1, h⟩ : Fin cfg0.N).val % 16 = 0 := by dsimp only; omega
    have ih := outsAt_val c n (Nat.lt_of_succ_lt h) j
    rw [if_neg (by omega), add_zero] at ih
    rw [running_succ, partialAt, dif_pos h]
    by_cases h15 : n + 1 = 15
    · have h1 : (⟨n + 1, h⟩ : Fin cfg0.N).val % 16 = 15 := by dsimp only; omega
      rw [step_C m c ⟨n + 1, h⟩ h0 h1 j, if_pos h15]
      show (outsAt0 m c n _ j + _) + _ = _
      rw [ih]
      obtain rfl : n = 14 := by omega
      rw [lastDot, dif_pos h]
    · have h1 : ¬(⟨n + 1, h⟩ : Fin cfg0.N).val % 16 = 15 := by dsimp only; omega
      rw [step_B m c ⟨n + 1, h⟩ h0 h1 j, if_neg h15, add_zero]
      show outsAt0 m c n _ j + _ = _
      rw [ih]

end Cert.KernelIdeal.Chain

end
-- ==== Proof.LossSpec.lean ====
/-
  The loss both programs compute, as one extended real of the two argument arrays.

  For arrays A, B of N rows and D lanes, the product of row i is  d i = Σ_k A(i,k) · B(i,k),  and the loss is
      Σ_i ( w i · d i + exp (d i) ),
  with weight w i = c on every row but the row L, whose weight is c'.  (For the programs here N = 65536,
  D = 256, L is the last row, c = 65533 and c' = 65534.)
-/
import Idealize.ShloMosaic.PureOps.Ideal
import Idealize.ShloMosaic.Lib.ValueIdx

noncomputable section

namespace Cert.LossSpec

open Idealize.ShloMosaic Idealize.ShloMosaic.ValueIdx

/-- The product of row i of two [N, D] arrays. -/
def gdot {N D : ℕ} (A B : (⟨2, ![N, D]⟩ : Shape).Idx → EReal) (i : Fin N) : EReal :=
  ∑ k : Fin D, A (ix2 i k) * B (ix2 i k)

/-- The loss: every row's weight times its product plus the exponential of its product; the weight is c on
    every row but L, where it is c'. -/
def loss {N D : ℕ} (L : Fin N) (c c' : EReal) (A B : (⟨2, ![N, D]⟩ : Shape).Idx → EReal) : EReal :=
  ∑ i : Fin N, ((if i = L then c' else c) * gdot A B i + Ideal.exp (gdot A B i))

/-- The last of the 65536 rows. -/
abbrev lastIdx : Fin 65536 := ⟨65535, by decide⟩

/-- The loss of the two programs: 65536 rows of 256 lanes, weight 65533, and 65534 on the last row. -/
def G (A B : (⟨2, ![65536, 256]⟩ : Shape).Idx → EReal) : EReal :=
  loss lastIdx ((65533 : ℝ) : EReal) ((65534 : ℝ) : EReal) A B

end Cert.LossSpec

end
-- ==== Proof.Consts.lean ====
/-
  The float words the two programs spell, as the extended reals they denote: the row weight 65533 of the
  kernel, the weights 65534 and 65535 and the 1 that the reference subtracts from them.
-/
import Idealize.ShloMosaic.PureOps.Ideal

noncomputable section

namespace Cert.Consts

open Idealize.ShloMosaic

/-- The word 0x477FFD00 is 65533. -/
theorem ofBits_65533 : Ideal.ofBits .f32 0x477FFD00#32 = ((65533 : ℝ) : EReal) := by
  simp [Ideal.ofBits, Ideal.ieee, -EReal.coe_mul]; norm_num

/-- The word 0x477FFE00 is 65534. -/
theorem ofBits_65534 : Ideal.ofBits .f32 0x477FFE00#32 = ((65534 : ℝ) : EReal) := by
  simp [Ideal.ofBits, Ideal.ieee, -EReal.coe_mul]; norm_num

/-- The word 0x477FFF00 is 65535. -/
theorem ofBits_65535 : Ideal.ofBits .f32 0x477FFF00#32 = ((65535 : ℝ) : EReal) := by
  simp [Ideal.ofBits, Ideal.ieee, -EReal.coe_mul]; norm_num

/-- The word 0x3F800000 is 1. -/
theorem ofBits_one : Ideal.ofBits .f32 0x3F800000#32 = ((1 : ℝ) : EReal) := by
  simp [Ideal.ofBits, Ideal.ieee, -EReal.coe_mul]; norm_num

end Cert.Consts

end
-- ==== Proof.KernelFinal.lean ====
/-
  The kernel's result is the loss.

  A block's row r at point t is row 4096·t + r of the array, so a block's row product is the array's row
  product and a point's partial total is the evenly weighted total of its 4096 rows.  The running total over
  the 16 points, plus the last row's product, is then the loss (the law on the extended reals).  The output
  array has one element, written back once, after the last point; the reshape after the region reads it as a
  scalar.
-/
import proofs.«114644_g86526411145838_feedfinal_116_6_alg».proof.Proof.Gen.KernelIdeal.Frame
import proofs.«114644_g86526411145838_feedfinal_116_6_alg».proof.Proof.KernelChain
import proofs.«114644_g86526411145838_feedfinal_116_6_alg».proof.Proof.LossSpec
import proofs.«114644_g86526411145838_feedfinal_116_6_alg».proof.Proof.LossLaw
import proofs.«114644_g86526411145838_feedfinal_116_6_alg».proof.Proof.Consts
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

open Idealize.ShloMosaic.Pipeline (Dat)

namespace Cert.KernelIdeal.Final

open Cert.KernelIdeal Cert.KernelIdeal.Gen Idealize.ShloMosaic.ValueIdx Cert.KernelIdeal.Payload Cert.KernelIdeal.Chain
open Cert.LossLaw Cert.LossSpec

variable (m : (ℓ : Loc nD τ sig) → Buf (Elt Ideal) ℓ) (ρ : Dev nD → PrngReg)

/-- The two argument arrays as core c finds them. -/
def argA (c : Dev nD) : (⟨2, ![65536, 256]⟩ : Shape).Idx → EReal := m ((c.tc : Thread nD τ).loc main_arg0)
def argB (c : Dev nD) : (⟨2, ![65536, 256]⟩ : Shape).Idx → EReal := m ((c.tc : Thread nD τ).loc main_arg1)

/-- Point t's block of either array starts at row t, lane 0, in blocks. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row r, lane k of point t's block of the first array is row 4096·t + r, lane k of the array. -/
theorem blk0_apply (c : Dev nD) (t : Fin cfg0.N) (r : Fin 4096) (k : Fin 256) (hb : 4096 * t.val + r.val < 65536) :
    blk0 m c t (ix2 r k) = argA m c (ix2 ⟨4096 * t.val + r.val, hb⟩ k) := by
  unfold blk0 iblk argA
  rw [View.read_apply]
  show V m c main_arg0 _ = m ((c.tc : Thread nD τ).loc main_arg0) _
  rw [V_main_arg0 m c]
  refine congrArg _ (funext fun a => Fin.ext ?_)
  match a with
  | ⟨0, _⟩ =>
    show win0_0.index t 0 * 4096 + 1 * r.val = 4096 * t.val + r.val
    rw [(idx_facts0 t).1]; omega
  | ⟨1, _⟩ =>
    show win0_0.index t 1 * 256 + 1 * k.val = k.val
    rw [(idx_facts0 t).2]; omega

/-- The same for the second array. -/
theorem blk1_apply (c : Dev nD) (t : Fin cfg0.N) (r : Fin 4096) (k : Fin 256) (hb : 4096 * t.val + r.val < 65536) :
    blk1 m c t (ix2 r k) = argB m c (ix2 ⟨4096 * t.val + r.val, hb⟩ k) := by
  unfold blk1 iblk argB
  rw [View.read_apply]
  show V m c main_arg1 _ = m ((c.tc : Thread nD τ).loc main_arg1) _
  rw [V_main_arg1 m c]
  refine congrArg _ (funext fun a => Fin.ext ?_)
  match a with
  | ⟨0, _⟩ =>
    show win0_1.index t 0 * 4096 + 1 * r.val = 4096 * t.val + r.val
    rw [(idx_facts1 t).1]; omega
  | ⟨1, _⟩ =>
    show win0_1.index t 1 * 256 + 1 * k.val = k.val
    rw [(idx_facts1 t).2]; omega

/-- So a block's row product is the arrays' row product at row 4096·t + r. -/
theorem rowDot_blk (c : Dev nD) (t : Fin cfg0.N) (r : Fin 4096) (hb : 4096 * t.val + r.val < 65536) :
    rowDot (blk0 m c t) (blk1 m c t) r = gdot (argA m c) (argB m c) ⟨4096 * t.val + r.val, hb⟩ := by
  unfold rowDot gdot
  exact Finset.sum_congr rfl fun k _ => congrArg₂ (· * ·) (blk0_apply m c t r k hb) (blk1_apply m c t r k hb)

/-- What the output block holds after the last point. -/
def kernelVal (c : Dev nD) : EReal := running 0 (partialAt m c) 15 + lastDot m c

theorem N16 : cfg0.N = 16 := N_0

/-- The running total over the 16 points plus the last row's product is the loss. -/
theorem kernelVal_eq (c : Dev nD) : kernelVal m c = G (argA m c) (argB m c) := by
  have h15 : 15 < cfg0.N := by rw [N16]; decide
  have hlast : lastDot m c = gdot (argA m c) (argB m c) lastIdx := by
    rw [lastDot, dif_pos h15]
    exact rowDot_blk m c ⟨15, h15⟩ lastRow (by show 4096 * 15 + 4095 < 65536; norm_num)
  have hL : ((65534 : ℝ) : EReal) * gdot (argA m c) (argB m c) lastIdx
      = ((65533 : ℝ) : EReal) * gdot (argA m c) (argB m c) lastIdx + gdot (argA m c) (argB m c) lastIdx := by
    rw [show (65534 : ℝ) = 65533 + 1 by norm_num]
    exact weight_succ 65533 (by norm_num) _
  have hB : ∀ s : Fin 16, partialAt m c s.val
      = ∑ r : Fin 4096, (((65533 : ℝ) : EReal) * gdot (argA m c) (argB m c) ⟨4096 * s.val + r.val, (by norm_num : 16 * 4096 = 65536) ▸ BlockSum.pos_lt s r⟩
        + Ideal.exp (gdot (argA m c) (argB m c) ⟨4096 * s.val + r.val, (by norm_num : 16 * 4096 = 65536) ▸ BlockSum.pos_lt s r⟩)) := by
    intro s
    have hs : s.val < cfg0.N := by rw [N16]; exact s.isLt
    rw [partialAt, dif_pos hs]
    unfold blockTotal
    rw [Consts.ofBits_65533]
    refine Finset.sum_congr rfl fun r _ => ?_
    rw [rowDot_blk m c ⟨s.val, hs⟩ r ((by norm_num : 16 * 4096 = 65536) ▸ BlockSum.pos_lt s r)]
  unfold kernelVal G loss
  rw [hlast]
  exact blocks_then_last (n := 16) (b := 4096) (N := 65536) (by norm_num) (by norm_num) lastIdx ((65533 : ℝ) : EReal)
    ((65534 : ℝ) : EReal) (gdot (argA m c) (argB m c)) (fun i => Ideal.exp (gdot (argA m c) (argB m c) i)) hL (partialAt m c) hB

/-- The output array's contents at the end: its one element holds the kernel's value. -/
def result (c : Dev nD) : Buf (Elt Ideal) ((c : Thread nD τ).loc main_v0) := fun _ => kernelVal m c

/-- The one write-back, after the last point, writes the block's contents: the one-element block is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  have e : outsAt0 m c t0_15.val t0_15.isLt = result m c :=
    funext fun j => (outsAt_val m c 15 t0_15.isLt j).trans (by rw [if_pos rfl]; rfl)
  rw [e]
  have hz' : (fun a => win0_2.index t0_15 a * main_v0.ty.shape.size a) = fun _ => 0 :=
    funext fun a => by fin_cases a <;> decide
  exact (Memref.read_access_unit_zero (Elt Ideal) main_v0 hz' (fun a => by rw [congrFun hz' a]; simp) (result m c)).symm

/-- So the output array ends at that value: the last point's block covers it. -/
theorem final_o (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      match a with
      | ⟨0, _⟩ =>
        show win0_2.index t0_15 0 * win0_2.size 0 ≤ (i 0 : Nat) ∧ (i 0 : Nat) < win0_2.index t0_15 0 * win0_2.size 0 + win0_2.xsize (grid0.coords t0_15) 0
        rw [show win0_2.index t0_15 0 * win0_2.size 0 = 0 from by decide +kernel, show win0_2.xsize (grid0.coords t0_15) 0 = 1 from by decide +kernel]; omega
      | ⟨1, _⟩ =>
        show win0_2.index t0_15 1 * win0_2.size 1 ≤ (i 1 : Nat) ∧ (i 1 : Nat) < win0_2.index t0_15 1 * win0_2.size 1 + win0_2.xsize (grid0.coords t0_15) 1
        rw [show win0_2.index t0_15 1 * win0_2.size 1 = 0 from by decide +kernel, show win0_2.xsize (grid0.coords t0_15) 1 = 1 from by decide +kernel]; omega
      | ⟨2, _⟩ =>
        show win0_2.index t0_15 2 * win0_2.size 2 ≤ (i 2 : Nat) ∧ (i 2 : Nat) < win0_2.index t0_15 2 * win0_2.size 2 + win0_2.xsize (grid0.coords t0_15) 2
        rw [show win0_2.index t0_15 2 * win0_2.size 2 = 0 from by decide +kernel, show win0_2.xsize (grid0.coords t0_15) 2 = 1 from by decide +kernel]; omega⟩

/-- The reshape after the region reads the one element as a scalar. -/
theorem tail_eq (c : Dev nD) :
    Pipeline.afterTail₀ cfgs (dats m) 0 (V0 m) [hostOps1] c main_v1 = fun _ => kernelVal m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = result m c :=
    (Pipeline.withArrays_arr spec0 launch0.win.arr_inj c (V0 m c) (fun w => (dats m 0 c).arrAt w cfg0.N) 2).trans (final_o m c)
  rw [e]
  rfl

/-- The kernel's run, read: the scalar result at the kernel's value, the arguments unchanged. -/
theorem run : θ_run defs (onTc (τ := τ) (main (F := Ideal))) ⟨m, fun _ => 0, ρ⟩ fun r => ∀ c : Dev nD,
      r.2.mem ((c.tc : Thread nD τ).loc main_v1) = (fun _ => kernelVal m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.LibScatterSet.lean ====
/-
  Setting one element of a vector by a scatter, read at an index.

  x.at[p].set(v) on a vector x of extent N prints as a scatter of ONE scalar update at ONE scatter index: the
  scatter indices are an array of extent [1] holding p (its one axis is the index vector's), the update is a
  rank-0 array, the operand's one axis is an inserted window axis named by the index vector's one component,
  and the body returns the update.  The update lands on element p when p, read signed, lies in [0, N); then
  the result, at i, is the update if i = p and x at i otherwise.  Stated for any extent N, any element type and
  any index width.
-/
import Idealize.ShloMosaic.PureOps
import Idealize.ShloMosaic.Lib.ValueIdx

namespace ScatterSet

open Idealize.ShloMosaic Idealize.ShloMosaic.ValueIdx

variable {α : Type}

/-- The dimension numbers of x.at[p].set(v) on a vector. -/
abbrev setDims (N : ℕ) (wf : ScatterDims.WF (⟨1, ![N]⟩ : Shape) ⟨1, ![1]⟩ ⟨0, ![]⟩ [] [0] [0] 0) :
    ScatterDims (⟨1, ![N]⟩ : Shape) ⟨1, ![1]⟩ ⟨0, ![]⟩ :=
  { updateWindowDims := [], insertedWindowDims := [0], scatterDimsToOperandDims := [0], indexVectorDim := 0, wf := wf }

/-- The scatter indices have one position. -/
theorem idx1_unique (k k' : (⟨1, ![1]⟩ : Shape).Idx) : k = k' := by
  rw [eq_ix1 k, eq_ix1 k']
  exact congrArg ix1 (Subsingleton.elim (α := Fin 1) _ _)

/-- The window starts, on the operand's one axis, at the scatter index read signed. -/
theorem start_eq {N w : ℕ} (wf : ScatterDims.WF (⟨1, ![N]⟩ : Shape) ⟨1, ![1]⟩ ⟨0, ![]⟩ [] [0] [0] 0)
    (j : (⟨0, ![]⟩ : Shape).Idx) (idx : IVec ⟨1, ![1]⟩ w) (a : Fin 1) :
    (setDims N wf).start j idx a = (idx (ix1 0)).toInt := by
  unfold ScatterDims.start
  have ha : a ∈ (setDims N wf).scatterDimsToOperandDims := by
    have : a = 0 := Subsingleton.elim _ _
    subst this
    exact List.mem_singleton.mpr rfl
  rw [dif_pos ha]
  exact congrArg (fun k => (idx k).toInt) (idx1_unique _ _)

/-- The update has no window axis: the window coordinate is 0. -/
theorem window_eq {N : ℕ} (wf : ScatterDims.WF (⟨1, ![N]⟩ : Shape) ⟨1, ![1]⟩ ⟨0, ![]⟩ [] [0] [0] 0)
    (j : (⟨0, ![]⟩ : Shape).Idx) (a : Fin 1) : (setDims N wf).window j a = 0 := by
  unfold ScatterDims.window
  have ha : a ∉ (setDims N wf).sKept := by
    have : a = 0 := Subsingleton.elim _ _
    subst this
    show (0 : Fin 1) ∉ (List.finRange 1).filter (fun b : Fin 1 => b ∉ ([0] : List (Fin 1)))
    decide
  rw [dif_neg ha]

/-- The update lands on element p when the scatter index, read signed, is p. -/
theorem resultIdx_eq {N w : ℕ} (wf : ScatterDims.WF (⟨1, ![N]⟩ : Shape) ⟨1, ![1]⟩ ⟨0, ![]⟩ [] [0] [0] 0)
    (j : (⟨0, ![]⟩ : Shape).Idx) (idx : IVec ⟨1, ![1]⟩ w) (p : Fin N) (hp : (idx (ix1 0)).toInt = (p.val : Int)) :
    (setDims N wf).resultIdx? j idx = some (ix1 p) := by
  unfold ScatterDims.resultIdx?
  have h : ∀ a, 0 ≤ (setDims N wf).start j idx a + (setDims N wf).window j a
      ∧ (setDims N wf).start j idx a + (setDims N wf).window j a < (⟨1, ![N]⟩ : Shape).size a := by
    intro a
    rw [start_eq, window_eq, hp]
    have : a = 0 := Subsingleton.elim _ _
    subst this
    have hlt := p.isLt
    show 0 ≤ (p.val : Int) + ((0 : ℕ) : Int) ∧ (p.val : Int) + ((0 : ℕ) : Int) < (N : Int)
    omega
  rw [dif_pos h]
  refine congrArg some (funext fun a => Fin.ext ?_)
  have : a = 0 := Subsingleton.elim _ _
  subst this
  show ((setDims N wf).start j idx 0 + (setDims N wf).window j 0).toNat = p.val
  rw [start_eq, window_eq, hp]
  simp

/-- x.at[p].set(v) at i: v if i = p, x at i otherwise. -/
theorem scatter_set_apply {N w : ℕ} (wf : ScatterDims.WF (⟨1, ![N]⟩ : Shape) ⟨1, ![1]⟩ ⟨0, ![]⟩ [] [0] [0] 0)
    (x : (⟨1, ![N]⟩ : Shape).Idx → α) (idx : IVec ⟨1, ![1]⟩ w) (upd : (⟨0, ![]⟩ : Shape).Idx → α)
    (p : Fin N) (hp : (idx (ix1 0)).toInt = (p.val : Int)) (i : Fin N) :
    Host.scatter (setDims N wf) (fun _ b => b) x idx upd (ix1 i) = if i = p then upd ix0 else x (ix1 i) := by
  unfold Host.scatter
  rw [show List.finRange (⟨0, ![]⟩ : Shape).numel = [⟨0, by decide⟩] from by decide]
  simp only [List.foldl_cons, List.foldl_nil]
  rw [resultIdx_eq wf _ idx p hp]
  dsimp only
  by_cases h : i = p
  · subst h
    rw [if_pos rfl, if_pos rfl]
    exact congrArg upd (eq_ix0 _)
  · rw [if_neg h, if_neg (fun e => h (congrFun e 0))]

end ScatterSet
-- ==== Proof.LibSumIdx1.lean ====
/-
  A sum over the index set of a vector of extent n is the sum over its one coordinate.
-/
import Idealize.ShloMosaic.Lib.ValueIdx

namespace SumIdx1

open Idealize.ShloMosaic Idealize.ShloMosaic.ValueIdx

/-- A rank-1 index is its coordinate. -/
def idxEquiv1 {n : ℕ} : (⟨1, ![n]⟩ : Shape).Idx ≃ Fin n where
  toFun j := j 0
  invFun a := ix1 a
  left_inv j := (eq_ix1 j).symm
  right_inv _ := rfl

/-- So a sum over the index set is the sum over the coordinate. -/
theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

end SumIdx1
-- ==== Proof.RefValue.lean ====
/-
  The reference's result is the loss.

  The reference multiplies the arrays, sums every row's lanes from zero (the row products d i), builds the
  weights as a vector of 65534 with 65535 set at the last row, subtracts 1 from them, and sums
  weight · d + exp d  over the rows from zero.  Read one operation at a time, at an index, that is the loss with
  weight 65533 on every row but the last, whose weight is 65534.
-/
import proofs.«114644_g86526411145838_feedfinal_116_6_alg».proof.Proof.Gen.ReferenceIdeal.Read
import proofs.«114644_g86526411145838_feedfinal_116_6_alg».proof.Proof.LossSpec
import proofs.«114644_g86526411145838_feedfinal_116_6_alg».proof.Proof.LibScatterSet
import proofs.«114644_g86526411145838_feedfinal_116_6_alg».proof.Proof.LibSumIdx1
import proofs.«114644_g86526411145838_feedfinal_116_6_alg».proof.Proof.Consts
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.LossSpec

/-- The lane sum from zero is the row product. -/
theorem v1_apply (x0 x1 : (⟨S65536x256, .f32⟩ : BufTy).Contents (Elt Ideal)) (a : Fin 65536) :
    val_main_v1 (F := Ideal) x0 x1 (ix1 a) = gdot x0 x1 a := by
  rw [val_main_v1_apply]
  refine (congrArg₂ (· + ·) Ideal.ofBits_zero_f32 (Finset.sum_congr rfl fun k _ => ?_)).trans (zero_add _)
  have e : idx_main_v1 (ix1 a) k = ix2 a k :=
    funext fun b => Fin.ext (by match b with | ⟨0, _⟩ => rfl | ⟨1, _⟩ => rfl)
  show x0 (idx_main_v1 (ix1 a) k) * x1 (idx_main_v1 (ix1 a) k) = x0 (ix2 a k) * x1 (ix2 a k)
  rw [e]

/-- The weights: 65534 with 65535 set at the last row. -/
theorem v4_apply (a : Fin 65536) :
    val_main_v4 (F := Ideal) (ix1 a)
      = if a = lastIdx then Ideal.ofBits .f32 0x477FFF00#32 else Ideal.ofBits .f32 0x477FFE00#32 := by
  unfold val_main_v4
  refine (ScatterSet.scatter_set_apply scatter_S65536_S1_S__n_0_0_0_wf (val_main_v2 (F := Ideal))
    (val_main_v3 (F := Ideal)) (val_main_cst_1 (F := Ideal)) lastIdx ?_ a).trans ?_
  · rw [val_main_v3_apply, val_main_c_apply]
    decide
  · rw [val_main_v2_apply]
    rfl

/-- One less: 65533 on every row but the last, 65534 there. -/
theorem v6_apply (a : Fin 65536) :
    val_main_v6 (F := Ideal) (ix1 a) = if a = lastIdx then ((65534 : ℝ) : EReal) else ((65533 : ℝ) : EReal) := by
  have e5 : val_main_v5 (F := Ideal) (ix1 a) = Ideal.ofBits .f32 0x3F800000#32 := by
    rw [val_main_v5_apply]
    rfl
  show val_main_v4 (F := Ideal) (ix1 a) - val_main_v5 (F := Ideal) (ix1 a) = _
  rw [v4_apply, e5, Consts.ofBits_65535, Consts.ofBits_65534, Consts.ofBits_one]
  split_ifs <;> rw [← EReal.coe_sub] <;> norm_num

/-- The reference's result is the loss. -/
theorem ref_eq (x0 x1 : (⟨S65536x256, .f32⟩ : BufTy).Contents (Elt Ideal)) (i : S_.Idx) :
    val_main_v10 (F := Ideal) x0 x1 i = G x0 x1 := by
  unfold G loss
  rw [val_main_v10_apply]
  refine (congrArg₂ (· + ·) Ideal.ofBits_zero_f32 (SumIdx1.sum_idx1 (n := 65536) _)).trans ?_
  refine (zero_add _).trans (Finset.sum_congr rfl fun a _ => ?_)
  rw [val_main_v9_apply, val_main_v7_apply, val_main_v8_apply, v6_apply, v1_apply]
  simp only [Ideal.addf_def, Ideal.mulf_def, Ideal.hostUnary_exp_def]

end Cert.ReferenceIdeal.RefValue

end
-- ==== Proof.lean ====
/-
  The kernel and the reference compute one loss, on the extended reals.

  With d i = Σ_k z_a(i,k) · z_b(i,k) the product of row i (65536 rows, 256 lanes), the reference returns
      Σ_i ( w i · d i + exp (d i) ),    w i = 65534 − 1 on every row but the last, 65535 − 1 on the last.
  The kernel walks the rows in 16 blocks of 4096: a block's partial total  Σ_r (65533 · d r + exp (d r))  is
  added into a one-element running total that starts from a stored zero, and after the last block the last
  row's product is added once more; a reshape reads the total as a scalar.

  The two are equal because a sum on the extended reals may be regrouped into blocks and reordered freely (it
  is the sum of a commutative monoid), and because (65533 + 1) · d = 65533 · d + d for every extended real d:
  multiplication distributes over a sum of nonnegative reals also at the infinities.  Nothing else is used,
  so the precondition (finite inputs) is never opened.

  The three frames are the generated ones (the reference's is its generated run with the result dropped); the
  ideal pass rewrote nothing, so the idealization claim is trivial.
-/
import proofs.«114644_g86526411145838_feedfinal_116_6_alg».proof.Defs
import proofs.«114644_g86526411145838_feedfinal_116_6_alg».proof.Proof.Gen.Kernel
import proofs.«114644_g86526411145838_feedfinal_116_6_alg».proof.Proof.Gen.Kernel.Skeleton
import proofs.«114644_g86526411145838_feedfinal_116_6_alg».proof.Proof.Gen.Kernel.Launch
import proofs.«114644_g86526411145838_feedfinal_116_6_alg».proof.Proof.Gen.Kernel.Points
import proofs.«114644_g86526411145838_feedfinal_116_6_alg».proof.Proof.Gen.Kernel.Frame
import proofs.«114644_g86526411145838_feedfinal_116_6_alg».proof.Proof.Gen.KernelIdeal
import proofs.«114644_g86526411145838_feedfinal_116_6_alg».proof.Proof.Gen.KernelIdeal.Skeleton
import proofs.«114644_g86526411145838_feedfinal_116_6_alg».proof.Proof.Gen.KernelIdeal.Launch
import proofs.«114644_g86526411145838_feedfinal_116_6_alg».proof.Proof.Gen.KernelIdeal.Points
import proofs.«114644_g86526411145838_feedfinal_116_6_alg».proof.Proof.Gen.KernelIdeal.Frame
import proofs.«114644_g86526411145838_feedfinal_116_6_alg».proof.Proof.Gen.ReferenceIdeal
import proofs.«114644_g86526411145838_feedfinal_116_6_alg».proof.Proof.Gen.Pre_finite_inputs
import proofs.«114644_g86526411145838_feedfinal_116_6_alg».proof.Proof.Gen.ReferenceIdeal.Run
import proofs.«114644_g86526411145838_feedfinal_116_6_alg».proof.Proof.Gen.ReferenceIdeal.Read
import proofs.«114644_g86526411145838_feedfinal_116_6_alg».proof.Proof.KernelFinal
import proofs.«114644_g86526411145838_feedfinal_116_6_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the two arrays both programs end at the loss of those arrays. -/
theorem algebraic : Cert.algebraic_KernelIdeal_ReferenceIdeal := by
  intro m ρ m' ρ' _ hagree
  refine ⟨fun c => fun _ => Cert.KernelIdeal.Final.kernelVal m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]
  funext i
  rw [Cert.ReferenceIdeal.RefValue.ref_eq]
  exact (Cert.KernelIdeal.Final.kernelVal_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
